-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S262144 : Shape := ⟨1, ![262144]⟩
abbrev S2x262144 : Shape := ⟨2, ![2, 262144]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S262144 : S_.BroadcastsInDim S262144 (![] : Fin 0 → Fin S262144.rank)
  reducesTo_S262144_S_d0 : S262144.ReducesTo [0] S_

variable [Facts]

def fn_part1 {F : FTy → Type} [FloatOps F] (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S262144 .f32) (main_arg4 : IVec S2x262144 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S262144 .f32 := Host.absf main_arg3
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S262144 : Shape := ⟨1, ![262144]⟩
abbrev S2x262144 : Shape := ⟨2, ![2, 262144]⟩
abbrev S1x262144 : Shape := ⟨2, ![1, 262144]⟩
abbrev S_ : Shape := ⟨0, ![]⟩
abbrev S262144x1 : Shape := ⟨2, ![262144, 1]⟩
abbrev S262144x2 : Shape := ⟨2, ![262144, 2]⟩
abbrev S8192x4096 : Shape := ⟨2, ![8192, 4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 36
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S262144, .f32⟩
  | .hbm, ⟨4, _⟩ => ⟨S2x262144, .i32⟩
  | .hbm, ⟨5, _⟩ => ⟨S1x262144, .i32⟩
  | .hbm, ⟨6, _⟩ => ⟨S262144, .i32⟩
  | .hbm, ⟨7, _⟩ => ⟨S1x262144, .i32⟩
  | .hbm, ⟨8, _⟩ => ⟨S262144, .i32⟩
  | .hbm, ⟨9, _⟩ => ⟨S_, .f32⟩
  | .hbm, ⟨10, _⟩ => ⟨S262144, .f32⟩
  | .hbm, ⟨11, _⟩ => ⟨S262144, .f32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x1, .i32⟩
  | .hbm, ⟨28, _⟩ => ⟨S262144x2, .i32⟩
  | .hbm, ⟨29, _⟩ => ⟨S4096x4096, .f32⟩
  | .hbm, ⟨30, _⟩ => ⟨S4096x4096, .bf16⟩
  | .hbm, ⟨31, _⟩ => ⟨S8192x4096, .f32⟩
  | .hbm, ⟨32, _⟩ => ⟨S8192x4096, .bf16⟩
  | .hbm, ⟨33, _⟩ => ⟨S1x4096, .f32⟩
  | .hbm, ⟨34, _⟩ => ⟨S8192x4096, .f32⟩
  | .hbm, ⟨35, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  scatter_S4096x4096_S262144x2_S262144_n_01_01_1_wf : ScatterDims.WF S4096x4096 S262144x2 S262144 [] [0, 1] [0, 1] 1
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def scatter_S4096x4096_S262144x2_S262144_n_01_01_1 : ScatterDims S4096x4096 S262144x2 S262144 where
  updateWindowDims := []
  insertedWindowDims := [0, 1]
  scatterDimsToOperandDims := [0, 1]
  indexVectorDim := 1
  wf := scatter_S4096x4096_S262144x2_S262144_n_01_01_1_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v22) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S262144 : Shape := ⟨1, ![262144]⟩
abbrev S2x262144 : Shape := ⟨2, ![2, 262144]⟩
abbrev S1x262144 : Shape := ⟨2, ![1, 262144]⟩
abbrev S_ : Shape := ⟨0, ![]⟩
abbrev S262144x1 : Shape := ⟨2, ![262144, 1]⟩
abbrev S262144x2 : Shape := ⟨2, ![262144, 2]⟩
abbrev S1x1x4096 : Shape := ⟨3, ![1, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S262144, .f32⟩
  | .hbm, ⟨4, _⟩ => ⟨S2x262144, .i32⟩
  | .hbm, ⟨5, _⟩ => ⟨S1x262144, .i32⟩
  | .hbm, ⟨6, _⟩ => ⟨S262144, .i32⟩
  | .hbm, ⟨7, _⟩ => ⟨S1x262144, .i32⟩
  | .hbm, ⟨8, _⟩ => ⟨S262144, .i32⟩
  | .hbm, ⟨9, _⟩ => ⟨S_, .f32⟩
  | .hbm, ⟨10, _⟩ => ⟨S262144, .f32⟩
  | .hbm, ⟨11, _⟩ => ⟨S262144, .f32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x1, .i32⟩
  | .hbm, ⟨28, _⟩ => ⟨S262144x2, .i32⟩
  | .hbm, ⟨29, _⟩ => ⟨S4096x4096, .f32⟩
  | .hbm, ⟨30, _⟩ => ⟨S4x2048x4096, .f32⟩
  | .hbm, ⟨31, _⟩ => ⟨S1x1x4096, .f32⟩
  | .hbm, ⟨32, _⟩ => ⟨S4x2048x4096, .f32⟩
  | .hbm, ⟨33, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  scatter_S4096x4096_S262144x2_S262144_n_01_01_1_wf : ScatterDims.WF S4096x4096 S262144x2 S262144 [] [0, 1] [0, 1] 1
  dot_S4x2048x4096_S4096x4096_S4x2048x4096_2_1_01_0_n_n_wf : DotDims.WF S4x2048x4096 S4096x4096 S4x2048x4096 [2] [1] [0, 1] [0] [] []

variable [Facts₀]

def scatter_S4096x4096_S262144x2_S262144_n_01_01_1 : ScatterDims S4096x4096 S262144x2 S262144 where
  updateWindowDims := []
  insertedWindowDims := [0, 1]
  scatterDimsToOperandDims := [0, 1]
  indexVectorDim := 1
  wf := scatter_S4096x4096_S262144x2_S262144_n_01_01_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.PieceValues.lean ====
/-
  What each kind of grid point leaves in the accumulator and in the output tile, as the body's stored values.

  A run over the inner axis has three kinds of points. Its first point stores the zero tile into the accumulator and then the
  step over it; a middle point stores the step over what the point before left; its last point does the same and then stores,
  into the output tile, the accumulator plus the bias. Every store covers its whole buffer and every load reads a whole
  buffer, so what a buffer ends holding is the value last stored into it, with each load replaced by the contents it read.
  Stated for any interpretation of the floats.
-/
import proofs.«146699_j14912126452257_2_alg».proof.Proof.Gen.KernelIdeal.Frame
import Idealize.ShloMosaic.Lib.Pipeline.Value
import Idealize.ShloMosaic.Lib.Tactic

noncomputable section

namespace Cert.KernelIdeal.PieceValues

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The first point of a run leaves in the accumulator the step over the zero tile. -/
theorem acc_first (c : Dev nD) (i : grid0.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : cond0_0 i) (hc1 : ¬cond0_1 i)
    (x0 : Vec F S2048x512 .bf16) (x1 : Vec F S1024x512 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, h5.read_unread, h7.read_unread, View.ld_unit_zero (S := S2048x1024) hz,
    View.ld_unit_zero (S := S2048x512) hz, View.ld_unit_zero (S := S1024x512) hz, View.ld_unit_zero (S := S1x1024) hz]

/-- A middle point leaves in the accumulator the step over what the point before left there. -/
theorem acc_middle (c : Dev nD) (i : grid0.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : ¬cond0_1 i)
    (x0 : Vec F S2048x512 .bf16) (x1 : Vec F S1024x512 .bf16) (x2 : Vec F S1x1024 .f32) (xs0 : Vec F S2048x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h5.read_unread, h7.read_unread, View.ld_unit_zero (S := S2048x1024) hz,
    View.ld_unit_zero (S := S2048x512) hz, View.ld_unit_zero (S := S1024x512) hz, View.ld_unit_zero (S := S1x1024) hz]

/-- The last point of a run leaves in the accumulator the same step, -/
theorem acc_last (c : Dev nD) (i : grid0.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i)
    (x0 : Vec F S2048x512 .bf16) (x1 : Vec F S1024x512 .bf16) (x2 : Vec F S1x1024 .f32) (xs0 : Vec F S2048x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread, View.ld_unit_zero (S := S2048x1024) hz,
    View.ld_unit_zero (S := S2048x512) hz, View.ld_unit_zero (S := S1024x512) hz, View.ld_unit_zero (S := S1x1024) hz]

/-- and in the output tile that step's result plus the bias row. -/
theorem out_last (c : Dev nD) (i : grid0.Coords) (a3 : Memref sig .tc .vmem S2048x512 .bf16) (h3 : a3.IsWhole) (a4 : Memref sig .tc .vmem S1024x512 .bf16) (h4 : a4.IsWhole) (a5 : Memref sig .tc .vmem S1x1024 .f32) (h5 : a5.IsWhole) (a6 : Memref sig .tc .vmem S2048x1024 .f32) (h6 : a6.IsWhole) (a7 : Memref sig .tc .vmem S2048x1024 .f32) (h7 : a7.IsWhole) (hc0 : ¬cond0_0 i) (hc1 : cond0_1 i)
    (x0 : Vec F S2048x512 .bf16) (x1 : Vec F S1024x512 .bf16) (x2 : Vec F S1x1024 .f32) (xs0 : Vec F S2048x1024 .f32) :
    out0_C_3 c i a3 h3 a4 h4 a5 h5 a6 h6 a7 h7 hc0 hc1 x0 x1 x2 xs0 = k0_pay3 x2 (k0_pay2 xs0 x0 x1) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S2048x1024) _ hz]
  simp only [View.readAt_eq_ld, h3.read_unread, h4.read_unread, h5.read_unread, h7.read_unread, View.ld_unit_zero (S := S2048x1024) hz,
    View.ld_unit_zero (S := S2048x512) hz, View.ld_unit_zero (S := S1024x512) hz, View.ld_unit_zero (S := S1x1024) hz]

end Cert.KernelIdeal.PieceValues

end
-- ==== Proof.LibTransDot.lean ====
/-
  A matrix product against a transposed right operand.

  For a two-axis contraction `[M, K] × [N, K] → [M, N]` whose dimension numbers contract the second axis of both
  operands and keep the other two in order (`TransDot`), the sum over the contraction index at output `(r, c)` is
  `∑ k : Fin K, x (r, k) · w (c, k)` (`sum_contr_trans_eq`), and so is the product into a zero accumulator read at
  `(r, c)` (`matmul_zero_trans_apply`). Only the commutative monoid of the extended reals' addition is used.
-/
import Idealize.ShloMosaic.Lib.ValueIdx
import Idealize.ShloMosaic.PureOps.Ideal.Laws

noncomputable section

namespace Idealize.ShloMosaic.TransDot

open Idealize.ShloMosaic Idealize.ShloMosaic.ValueIdx

/-- The dimension numbers of a product with a transposed right operand: one contracted axis of extent `K`; the left
    operand's index at output `j` and contraction index `q` is `(j 0, q)`, the right operand's `(j 1, q)`. -/
structure TransDot {M K N : Nat} (d : DotDims (⟨2, ![M, K]⟩ : Shape) (⟨2, ![N, K]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (j 1).val
  r1 : ∀ (j : (⟨2, ![M, N]⟩ : Shape).Idx) (q : d.contr.Idx), (d.rhsIdx j q 1).val = (q ⟨0, by omega⟩).val

variable {M K N : Nat}

/-- The contraction's sum at output `j` is the sum over `k : Fin K` of `x (j 0, k) · w (j 1, k)`. -/
theorem sum_contr_trans_eq (d : DotDims (⟨2, ![M, K]⟩ : Shape) (⟨2, ![N, K]⟩ : Shape) (⟨2, ![M, N]⟩ : Shape)) (h : TransDot d)
    (x : (⟨2, ![M, K]⟩ : Shape).Idx → EReal) (w : (⟨2, ![N, K]⟩ : Shape).Idx → EReal) (j : (⟨2, ![M, N]⟩ : Shape).Idx) :
    ∑ q : d.contr.Idx, x (d.lhsIdx j q) * w (d.rhsIdx j q) = ∑ k : Fin K, x (ix2 (j 0) k) * w (ix2 (j 1) k) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 (j 1) k := funext fun a => Fin.ext (by
    match a with
    | ⟨0, _⟩ => exact h.r0 _ _
    | ⟨1, _⟩ => exact (h.r1 _ _).trans hk)
  exact congrArg₂ (· * ·) (congrArg x el) (congrArg w er)

/-- The product into the zero accumulator, read at `(p, c)`. -/
theorem matmul_zero_trans_apply {φ₁ φ₂ : FTy}
    (d : DotDims (⟨2, ![M, K]⟩ : Shape) (⟨2, ![N, K]⟩ : Shape) (⟨2, ![M, N]⟩ : Shape)) (hd : TransDot d)
    (prec : Option ContractPrecision) (lhs : FVec Ideal ⟨2, ![M, K]⟩ φ₁) (rhs : FVec Ideal ⟨2, ![N, K]⟩ φ₂) (p : Fin M) (c : Fin N) :
    matmul d prec lhs rhs (constant ⟨2, ![M, N]⟩ .f32 0x00000000#32) (ix2 p c) = ∑ k : Fin K, lhs (ix2 p k) * rhs (ix2 c k) :=
  (Ideal.matmul_constant_zero_apply d prec lhs rhs (ix2 p c)).trans (sum_contr_trans_eq d hd lhs rhs (ix2 p c))

end Idealize.ShloMosaic.TransDot

end
-- ==== Proof.LibTileRead.lean ====
/-
  Readings at an index given by coordinates that a tile of pairwise quantities meets, over generic extents `a`, `b`.

  * A transposed matrix `[a, b] → [b, a]` reads at `(q, p)` the matrix at `(p, q)` (`transpose_swap_apply`).
  * A row `[1, b]` stretched over `[a, b]` reads at `(p, q)` the row at `(0, q)` (`broadcastTo_row_apply`).
  * A column `[a, 1]` recast as a vector `[a]`, a vector `[b]` recast as a row `[1, b]`, and a row `[1, b]` recast
    as `[1, 1, b]`, each read where the row-major position says (`shapeCast_uncolumn_apply`, `shapeCast_row_apply`,
    `shapeCast_row3_apply`).
  * The minimum of an `[a, b]` array of extended reals along its second axis, from the word of `+∞`, reads at `p` the
    infimum over `q` of the entries `(p, q)` (`rowMin_apply`); along its first axis it reads at `q` the infimum over
    `p` (`colMin_apply`): a fold of `min` from the top element over a whole finite type is the infimum.
  * The host's minimum-reduction of an `[a, b]` array along its first axis, from a scalar holding the word of `+∞`,
    likewise (`hostColMin_apply`).
  * A plain matrix product `[M, K] × [K, N] → [M, N]` (`PlainDot`: the left operand's second axis contracted with the
    right operand's first) into the zero accumulator reads at `(p, n)` the sum over `k` of `x (p, k) · w (k, n)`
    (`matmul_zero_plain_apply`).
-/
import Idealize.ShloMosaic.Lib.ValueIdx
import Idealize.ShloMosaic.Lib.Pipeline.Value
import Idealize.ShloMosaic.PureOps.Ideal.Laws

noncomputable section

namespace Cert.Lib.TileRead

open Idealize.ShloMosaic Idealize.ShloMosaic.ValueIdx

/-- The word of `+∞` is the top element of the extended reals. -/
theorem inf_word : Ideal.ofBits .f32 0x7F800000#32 = (⊤ : EReal) := by simp [Ideal.ofBits, Ideal.ieee]

/-- The fold of `min` from `⊤` over a whole finite type is the infimum of the family. -/
theorem fold_min_top {ι : Type*} [Fintype ι] (f : ι → EReal) : (Finset.univ : Finset ι).fold min ⊤ f = ⨅ k, f k := by
  apply le_antisymm
  · exact le_iInf fun k => (Finset.fold_min_le _).2 (Or.inr ⟨k, Finset.mem_univ k, le_rfl⟩)
  · exact (Finset.le_fold_min _).2 ⟨le_top, fun k _ => iInf_le f k⟩

/-! ## Layout -/

/-- A matrix transposed reads at `(q, p)` the matrix at `(p, q)`. -/
theorem transpose_swap_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun bx => by
    match bx with
    | ⟨0, _⟩ => rfl
    | ⟨1, _⟩ => rfl

/-- A row `[1, b]` broadcast to `[a, b]` reads, at `(p, q)`, the row at `(0, q)`. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An `[a, 1]` column cast to `[a]` reads, at `p`, the column at `(p, 0)`. -/
theorem shapeCast_uncolumn_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A `[b]` vector cast to a `[1, b]` row reads, at `(0, q)`, the vector at `q`. -/
theorem shapeCast_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- A `[1, b]` row cast to `[1, 1, b]` reads, at `(0, 0, q)`, the row at `(0, q)`. -/
theorem shapeCast_row3_apply {α : Type} {b : ℕ} (x : (⟨2, ![1, b]⟩ : Shape).Idx → α)
    (h : (⟨2, ![1, b]⟩ : Shape).ShapeCasts ⟨3, ![1, 1, b]⟩) (u v : Fin 1) (q : Fin b) :
    shapeCast ⟨3, ![1, 1, b]⟩ x h (ix3 u v q) = x (ix2 (0 : Fin 1) q) :=
  shapeCast_apply x h _ _ (by
    have hu : u.val = 0 := by omega
    have hv : v.val = 0 := by omega
    rw [Shape.rowMajor_val_three, Shape.rowMajor_val_two]
    show 0 * b + q.val = (u.val * 1 + v.val) * b + q.val
    rw [hu, hv])

/-! ## Minima along one axis of a matrix -/

/-- The minimum along the second axis, from the word of `+∞`, at `p`: the infimum of row `p`. -/
theorem rowMin_apply {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (p : Fin a) :
    multiReduction .minimumf [1] ⟨1, ![a]⟩ v 0x7F800000#32 h hφ hacc (ix1 p) = ⨅ q : Fin b, v (ix2 p q) := by
  refine (multiReduction_minimumf_eq_fold v _ h hφ hacc (ix1 p)).trans ?_
  refine (h.fold_filter_drop_single FloatOps.minimumf _ v (ix1 p)).trans ?_
  show Finset.fold min (Ideal.ofBits .f32 0x7F800000#32) (fun q : Fin b => v (h.lift (ix1 p) q)) Finset.univ = _
  rw [inf_word, fold_min_top]
  exact iInf_congr fun q => congrArg v (funext fun d => Fin.ext (by
    match d with
    | ⟨0, _⟩ => rfl
    | ⟨1, _⟩ => rfl))

/-- The minimum along the first axis, from the word of `+∞`, at `q`: the infimum of column `q`. -/
theorem colMin_apply {a b : ℕ} (v : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (q : Fin b) :
    multiReduction .minimumf [0] ⟨1, ![b]⟩ v 0x7F800000#32 h hφ hacc (ix1 q) = ⨅ p : Fin a, v (ix2 p q) := by
  refine (multiReduction_minimumf_eq_fold v _ h hφ hacc (ix1 q)).trans ?_
  refine (h.fold_filter_drop_single FloatOps.minimumf _ v (ix1 q)).trans ?_
  show Finset.fold min (Ideal.ofBits .f32 0x7F800000#32) (fun p : Fin a => v (h.lift (ix1 q) p)) Finset.univ = _
  rw [inf_word, fold_min_top]
  exact iInf_congr fun p => congrArg v (funext fun d => Fin.ext (by
    match d with
    | ⟨0, _⟩ => rfl
    | ⟨1, _⟩ => rfl))

/-- The host's minimum-reduction along the first axis, from a scalar holding the word of `+∞`, at `q`. -/
theorem hostColMin_apply {a b : ℕ} {u : Shape} (x : (⟨2, ![a, b]⟩ : Shape).Idx → EReal)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.minimumf (F := Ideal) (φ := .f32)) x (constant (F := Ideal) u .f32 0x7F800000#32) h' hu (ix1 q)
      = ⨅ p : Fin a, x (ix2 p q) := by
  refine (Host.reduce_eq_fold_single (FloatOps.minimumf (F := Ideal) (φ := .f32)) x _ h' h hu (ix1 q)).trans ?_
  show Finset.fold min (Ideal.ofBits .f32 0x7F800000#32) (fun p : Fin a => x (h.lift (ix1 q) p)) Finset.univ = _
  rw [inf_word, fold_min_top]
  exact iInf_congr fun p => congrArg x (funext fun d => Fin.ext (by
    match d with
    | ⟨0, _⟩ => rfl
    | ⟨1, _⟩ => rfl))

/-! ## A plain matrix product -/

/-- The dimension numbers of a plain product: one contracted axis of extent `K`; the left operand's index at output `j`
    and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_plain_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_plain_apply {φ₁ φ₂ : FTy}
    (d : DotDims (⟨2, ![M, K]⟩ : Shape) (⟨2, ![K, N]⟩ : Shape) (⟨2, ![M, N]⟩ : Shape)) (hd : PlainDot d)
    (prec : Option ContractPrecision) (lhs : FVec Ideal ⟨2, ![M, K]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 p k) * rhs (ix2 k n) :=
  (Ideal.matmul_constant_zero_apply d prec lhs rhs (ix2 p n)).trans (sum_contr_plain_eq d hd lhs rhs (ix2 p n))

end Cert.Lib.TileRead

end
-- ==== Proof.BodyAt.lean ====
/-
  The kernel body's three stored values at a row `p` and a column `q` of the accumulator tile.

  The body works on a tile of 2048 rows of `x` against 1024 rows of the weight, 512 columns of the shared inner axis at a
  time. It stores three things: the zero tile that opens a run over the inner axis; the accumulator plus the product of the two
  current tiles, the product contracting the second axis of BOTH tiles, so that entry `(p, q)` gains
  `∑ l, xtile (p, l) · wtile (q, l)`; and, closing the run, the accumulator plus the bias row repeated down the rows, so that
  entry `(p, q)` gains `bias (0, q)`. Over the extended reals each is read here entry by entry; nothing but the meaning of
  the operations is used.
-/
import proofs.«146699_j14912126452257_2_alg».proof.Proof.Gen.KernelIdeal.Skeleton
import proofs.«146699_j14912126452257_2_alg».proof.Proof.LibTransDot
import proofs.«146699_j14912126452257_2_alg».proof.Proof.LibTileRead
import Idealize.ShloMosaic.Lib.ValueIdx
import Idealize.ShloMosaic.Lib.Pipeline.Value
import Idealize.ShloMosaic.PureOps.Ideal.Laws

noncomputable section

namespace Cert.KernelIdeal.BodyAt

open Idealize.ShloMosaic Idealize.ShloMosaic.ValueIdx Idealize.ShloMosaic.TransDot
open Cert.KernelIdeal Cert.KernelIdeal.Gen

/-- The tile product contracts the second axis of both tiles and keeps the two row axes in order. -/
theorem tile_dot : TransDot dot_S2048x512_S1024x512_S2048x1024_1_1_0_0_n_n where
  hr := rfl
  hs := rfl
  l0 := fun j q => by
    unfold DotDims.lhsIdx
    rw [dif_neg (show ¬(0 : Fin S2048x512.rank) ∈ dot_S2048x512_S1024x512_S2048x1024_1_1_0_0_n_n.lhsBatch by decide),
      dif_pos (show (0 : Fin S2048x512.rank) ∈ dot_S2048x512_S1024x512_S2048x1024_1_1_0_0_n_n.lhsNonContracting by decide)]
    rfl
  l1 := fun j q => dot_S2048x512_S1024x512_S2048x1024_1_1_0_0_n_n.lhsIdx_val_of_single rfl j q
  r0 := fun j q => by
    unfold DotDims.rhsIdx
    rw [dif_neg (show ¬(0 : Fin S1024x512.rank) ∈ dot_S2048x512_S1024x512_S2048x1024_1_1_0_0_n_n.rhsBatch by decide),
      dif_pos (show (0 : Fin S1024x512.rank) ∈ dot_S2048x512_S1024x512_S2048x1024_1_1_0_0_n_n.rhsNonContracting by decide)]
    rfl
  r1 := fun j q => dot_S2048x512_S1024x512_S2048x1024_1_1_0_0_n_n.rhsIdx_val_of_single rfl j q

/-- The tile that opens a run is zero everywhere. -/
theorem opening_at (p : Fin 2048) (q : Fin 1024) : k0_pay1 (F := Ideal) (ix2 p q) = 0 := by
  unfold k0_pay1
  rw [shapeCast_self]
  exact Ideal.ofBits_zero_f32

/-- One step of a run: entry `(p, q)` of the accumulator gains the inner product of row `p` of the `x` tile with row `q` of
    the weight tile. -/
theorem step_at (acc : FVec Ideal S2048x1024 .f32) (xt : FVec Ideal S2048x512 .bf16) (wt : FVec Ideal S1024x512 .bf16)
    (p : Fin 2048) (q : Fin 1024) :
    k0_pay2 (F := Ideal) acc xt wt (ix2 p q) = acc (ix2 p q) + ∑ l : Fin 512, xt (ix2 p l) * wt (ix2 q l) := by
  unfold k0_pay2
  rw [shapeCast_self, shapeCast_self, shapeCast_self]
  exact congrArg (acc (ix2 p q) + ·) (matmul_zero_trans_apply dot_S2048x512_S1024x512_S2048x1024_1_1_0_0_n_n tile_dot none xt wt p q)

/-- The step that closes a run: entry `(p, q)` of the accumulator gains the bias of column `q`. -/
theorem closing_at (brow : FVec Ideal S1x1024 .f32) (acc : FVec Ideal S2048x1024 .f32) (p : Fin 2048) (q : Fin 1024) :
    k0_pay3 (F := Ideal) brow acc (ix2 p q) = acc (ix2 p q) + brow (ix2 (0 : Fin 1) q) := by
  unfold k0_pay3
  rw [shapeCast_self, shapeCast_self]
  exact congrArg (acc (ix2 p q) + ·) (Cert.Lib.TileRead.broadcastTo_row_apply brow broadcasts_S1x1024_S2048x1024 p q)

end Cert.KernelIdeal.BodyAt

end
-- ==== Proof.LibSums.lean ====
/-
  General facts about finite sums: a sum over `a · b` consecutive indices regrouped as `a` consecutive parts of
  `b` terms each; the coercion from the reals to the extended reals taken through a finite sum; and the identity
  between the two ways of writing a population variance, `q / n − μ²` (clamped at zero) and the mean squared
  deviation from the mean.
-/
import Idealize.ShloMosaic.PureOps.Ideal
import Mathlib.Tactic.FieldSimp
import Mathlib.Tactic.Ring
import Mathlib.Algebra.BigOperators.Fin
import Mathlib.Logic.Equiv.Fin.Basic
import Mathlib.Data.EReal.Basic

noncomputable section

open scoped BigOperators

namespace Cert.LibSums

/-- The `r`-th index of the `p`-th part, among `a` parts of `b` indices each, is below `a · b`. -/
theorem part_lt {a b : ℕ} (p : Fin a) (r : Fin b) : p.val * b + r.val < a * b :=
  calc p.val * b + r.val < p.val * b + b := Nat.add_lt_add_left r.isLt _
    _ = (p.val + 1) * b := (Nat.succ_mul _ _).symm
    _ ≤ a * b := Nat.mul_le_mul_right b p.isLt

/-- The same bound against a number `n` known to be `a · b`. -/
theorem part_lt' {a b n : ℕ} (h : a * b = n) (p : Fin a) (r : Fin b) : p.val * b + r.val < n :=
  lt_of_lt_of_eq (part_lt p r) h

/-- Regrouping: the sum over `n = a · b` consecutive indices is the sum over the `a` parts of the sum over each
    part's `b` consecutive indices `p · b + r`. -/
theorem sum_parts {M : Type*} [AddCommMonoid M] {a b n : ℕ} (h : a * b = n) (f : Fin n → M) :
    ∑ p : Fin a, ∑ r : Fin b, f ⟨p.val * b + r.val, part_lt' h p r⟩ = ∑ i : Fin n, f i := by
  subst h
  rw [← Equiv.sum_comp finProdFinEquiv f, Fintype.sum_prod_type]
  refine Finset.sum_congr rfl fun p _ => Finset.sum_congr rfl fun r _ => congrArg f (Fin.ext ?_)
  show p.val * b + r.val = r.val + b * p.val
  rw [Nat.mul_comm, Nat.add_comm]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The sum of the squared deviations from the mean `μ = s / n` is `q − n μ²`, where `s` is the sum and `q` the
    sum of the squares. -/
theorem sum_sq_dev {n : ℕ} (hn : 0 < n) (y : Fin n → ℝ) :
    ∑ i, (y i - (∑ j, y j) / n) * (y i - (∑ j, y j) / n)
      = (∑ i, y i * y i) - n * (((∑ j, y j) / n) * ((∑ j, y j) / n)) := by
  have hn' : (n : ℝ) ≠ 0 := Nat.cast_ne_zero.mpr hn.ne'
  generalize hμ : (∑ j, y j) / (n : ℝ) = μ
  have hs : ∑ j, y j = n * μ := by rw [← hμ]; field_simp
  have e : ∀ i, (y i - μ) * (y i - μ) = y i * y i - 2 * μ * y i + μ * μ := fun i => by ring
  simp only [e, Finset.sum_add_distrib, Finset.sum_sub_distrib, ← Finset.mul_sum, Finset.sum_const,
    Finset.card_univ, Fintype.card_fin, nsmul_eq_mul, hs]
  ring

/-- The variance identity over the reals: with `s = Σ y`, `q = Σ y²` and `μ = s / n`, the clamped difference
    `max (q / n − μ · μ) 0` is the mean squared deviation `(Σ (y − μ)²) / n`. -/
theorem variance_real {n : ℕ} (hn : 0 < n) (y : Fin n → ℝ) :
    max ((∑ i, y i * y i) / n - ((∑ j, y j) / n) * ((∑ j, y j) / n)) 0
      = (∑ i, (y i - (∑ j, y j) / n) * (y i - (∑ j, y j) / n)) / n := by
  have hn' : (n : ℝ) ≠ 0 := Nat.cast_ne_zero.mpr hn.ne'
  have key := sum_sq_dev hn y
  have e : (∑ i, y i * y i) / n - ((∑ j, y j) / n) * ((∑ j, y j) / n)
      = (∑ i, (y i - (∑ j, y j) / n) * (y i - (∑ j, y j) / n)) / n := by
    rw [key]; field_simp
  rw [e]
  exact max_eq_left (div_nonneg (Finset.sum_nonneg fun i _ => mul_self_nonneg _) (Nat.cast_nonneg n))

/-- The same on the extended reals, every quantity the coercion of a real: the clamped difference of the
    coerced `q / n` and the coerced mean's square is the coerced mean squared deviation. -/
theorem variance_ereal {n : ℕ} (hn : 0 < n) (y : Fin n → ℝ) :
    max ((((∑ i, y i * y i) / n : ℝ) : EReal) - (((∑ j, y j) / n : ℝ) : EReal) * (((∑ j, y j) / n : ℝ) : EReal)) 0
      = (((∑ i, (y i - (∑ j, y j) / n) * (y i - (∑ j, y j) / n)) / n : ℝ) : EReal) := by
  rw [← EReal.coe_mul, ← EReal.coe_sub, ← EReal.coe_zero, ← EReal.coe_strictMono.monotone.map_max, variance_real hn y]

end Cert.LibSums

end
-- ==== Proof.Tiles.lean ====
/-
  Where a grid point's tiles sit in their arrays.

  The grid has 4 · 4 · 8 points, the last coordinate fastest: point number `t` works on row block `t / 32` of `x`
  (2048 rows each), on row block `(t / 8) % 4` of the weight (1024 rows each), and on step `t % 8` of the inner axis
  (512 columns each). So entry `(p, l)` of its `x` tile is `x` at row `2048 · (t / 32) + p`, column `512 · (t % 8) + l`;
  entry `(q, l)` of its weight tile is the weight at row `1024 · ((t / 8) % 4) + q`, the same column; and entry `(0, q)` of
  its bias tile is the bias row at column `1024 · ((t / 8) % 4) + q`. Its output tile is rows `2048 · (t / 32) + p`, columns
  `1024 · ((t / 8) % 4) + q`. The three block numbers are read off the printed index maps, decided once over the grid.
-/
import proofs.«146699_j14912126452257_2_alg».proof.Proof.Gen.KernelIdeal.Frame
import proofs.«146699_j14912126452257_2_alg».proof.Proof.LibSums
import Idealize.ShloMosaic.Lib.ValueIdx
import Idealize.ShloMosaic.Lib.Pipeline.Value

noncomputable section

namespace Cert.KernelIdeal.Tiles

open Idealize.ShloMosaic Idealize.ShloMosaic.TcCoe Idealize.ShloMosaic.ValueIdx Idealize.SL.Sem
open Cert.KernelIdeal Cert.KernelIdeal.Gen

/-- Entry `r` of part `g`, among `a` consecutive parts of `b` entries each. -/
abbrev part {a b n : ℕ} (h : a * b = n) (g : Fin a) (r : Fin b) : Fin n := ⟨g.val * b + r.val, Cert.LibSums.part_lt' h g r⟩

theorem rows_x : 4 * 2048 = 8192 := by norm_num
theorem rows_w : 4 * 1024 = 4096 := by norm_num
theorem cols_inner : 8 * 512 = 4096 := by norm_num

theorem lt_points (t : Fin cfg0.N) : t.val < 128 := lt_of_lt_of_eq t.isLt (show cfg0.N = 128 from N_0)

/-- The row block of `x` a point works on, -/
def xBlock (t : Fin cfg0.N) : Fin 4 := ⟨t.val / 32, by have := lt_points t; omega⟩
/-- the row block of the weight, -/
def wBlock (t : Fin cfg0.N) : Fin 4 := ⟨t.val / 8 % 4, by omega⟩
/-- and the step along the inner axis. -/
def step (t : Fin cfg0.N) : Fin 8 := ⟨t.val % 8, by omega⟩

/-- The printed index maps of the four windows, in closed form. -/
theorem index_maps : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4)

variable {F : FTy → Type} [FloatOps F]
variable (m : (ℓ : Loc nD τ sig) → Buf (Elt F) ℓ)

/-- The `x` tile of point `t`. -/
theorem xtile_at (c : Dev nD) (t : Fin cfg0.N) (p : Fin 2048) (l : Fin 512) :
    (iblk m c 0 t : Vec F S2048x512 .bf16) (ix2 p l)
      = V m c main_v22 (ix2 (part rows_x (xBlock t) p) (part cols_inner (step t) l)) := by
  obtain ⟨e0, e1, -⟩ := index_maps t
  unfold iblk
  rw [View.read_apply]
  show V m c main_v22 (((cfg0.win 0).blk t).view.emb (ix2 p l)) = V m c main_v22 _
  refine congrArg (V m c main_v22) (funext fun a => Fin.ext ?_)
  match a with
  | ⟨0, _⟩ => show win0_0.index t (0 : Fin 2) * 2048 + 1 * p.val = t.val / 32 * 2048 + p.val; rw [e0]; omega
  | ⟨1, _⟩ => show win0_0.index t (1 : Fin 2) * 512 + 1 * l.val = t.val % 8 * 512 + l.val; rw [e1]; omega

/-- The weight tile of point `t`. -/
theorem wtile_at (c : Dev nD) (t : Fin cfg0.N) (q : Fin 1024) (l : Fin 512) :
    (iblk m c 1 t : Vec F S1024x512 .bf16) (ix2 q l)
      = V m c main_v20 (ix2 (part rows_w (wBlock t) q) (part cols_inner (step t) l)) := by
  obtain ⟨-, -, e0, e1, -⟩ := index_maps t
  unfold iblk
  rw [View.read_apply]
  show V m c main_v20 (((cfg0.win 1).blk t).view.emb (ix2 q l)) = V m c main_v20 _
  refine congrArg (V m c main_v20) (funext fun a => Fin.ext ?_)
  match a with
  | ⟨0, _⟩ => show win0_1.index t (0 : Fin 2) * 1024 + 1 * q.val = t.val / 8 % 4 * 1024 + q.val; rw [e0]; omega
  | ⟨1, _⟩ => show win0_1.index t (1 : Fin 2) * 512 + 1 * l.val = t.val % 8 * 512 + l.val; rw [e1]; omega

/-- The bias tile of point `t`. -/
theorem btile_at (c : Dev nD) (t : Fin cfg0.N) (q : Fin 1024) :
    (iblk m c 2 t : Vec F S1x1024 .f32) (ix2 (0 : Fin 1) q)
      = V m c main_v23 (ix2 (0 : Fin 1) (part rows_w (wBlock t) q)) := by
  obtain ⟨-, -, -, -, e0, e1, -⟩ := index_maps t
  unfold iblk
  rw [View.read_apply]
  show V m c main_v23 (((cfg0.win 2).blk t).view.emb (ix2 (0 : Fin 1) q)) = V m c main_v23 _
  refine congrArg (V m c main_v23) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = t.val / 8 % 4 * 1024 + q.val; rw [e1]; omega

end Cert.KernelIdeal.Tiles

end
-- ==== Proof.Accumulated.lean ====
/-
  The accumulator over a run of eight grid points, and the output tile the run's last point writes.

  The eight points `8 g, …, 8 g + 7` share one `x` row block and one weight row block and walk the inner axis. The first
  stores `0 + a₀` into the accumulator, each later one adds its own `aₛ`, where `aₛ (p, q) = ∑ l, xtileₛ (p, l) · wtileₛ (q, l)`;
  so after point `8 g + j` entry `(p, q)` holds `0 + ∑ s ≤ j, aₛ (p, q)`. The last point's output tile is that plus the bias.
  Reading the tiles where they sit in their arrays, and putting the eight consecutive 512-column parts together, entry `(p, q)`
  of the output tile of run `g` is `(0 + ∑ k, X (r, k) · W (o, k)) + B (0, o)` over all 4096 inner columns `k`, with `r` and `o`
  the rows of `x` and of the weight that `p` and `q` are in their blocks. Only the additive commutative monoid of the extended
  reals is used: no entry needs to be finite.
-/
import proofs.«146699_j14912126452257_2_alg».proof.Proof.PieceValues
import proofs.«146699_j14912126452257_2_alg».proof.Proof.BodyAt
import proofs.«146699_j14912126452257_2_alg».proof.Proof.Tiles
import proofs.«146699_j14912126452257_2_alg».proof.Proof.LibSums

noncomputable section

namespace Cert.KernelIdeal.Accumulated

open Idealize.ShloMosaic Idealize.ShloMosaic.TcCoe Idealize.ShloMosaic.ValueIdx Idealize.SL.Sem
open Cert.KernelIdeal Cert.KernelIdeal.Gen Cert.KernelIdeal.Tiles

variable (m : (ℓ : Loc nD τ sig) → Buf (Elt Ideal) ℓ)

/-! ## Names, as arrays of extended reals -/

/-- The three arrays the region works on, as it finds them: `x` as 8192 rows, the weight, the bias as one row. -/
def X (c : Dev nD) : FVec Ideal S8192x4096 .bf16 := V m c main_v22
def W (c : Dev nD) : FVec Ideal S4096x4096 .bf16 := V m c main_v20
def B (c : Dev nD) : FVec Ideal S1x4096 .f32 := V m c main_v23
/-- Point `t`'s three input tiles. -/
def xtile (c : Dev nD) (t : Fin cfg0.N) : FVec Ideal S2048x512 .bf16 := iblk m c 0 t
def wtile (c : Dev nD) (t : Fin cfg0.N) : FVec Ideal S1024x512 .bf16 := iblk m c 1 t
def btile (c : Dev nD) (t : Fin cfg0.N) : FVec Ideal S1x1024 .f32 := iblk m c 2 t
/-- The accumulator and the output tile after point number `n`. -/
def accTile (c : Dev nD) (n : ℕ) (h : n < cfg0.N) : FVec Ideal S2048x1024 .f32 := (outsAt0 m c n h).2
def outTile (c : Dev nD) (n : ℕ) (h : n < cfg0.N) : FVec Ideal S2048x1024 .f32 := (outsAt0 m c n h).1

theorem xtile_at (c : Dev nD) (t : Fin cfg0.N) (p : Fin 2048) (l : Fin 512) :
    xtile m c t (ix2 p l) = X m c (ix2 (part rows_x (xBlock t) p) (part cols_inner (step t) l)) := Tiles.xtile_at m c t p l
theorem wtile_at (c : Dev nD) (t : Fin cfg0.N) (q : Fin 1024) (l : Fin 512) :
    wtile m c t (ix2 q l) = W m c (ix2 (part rows_w (wBlock t) q) (part cols_inner (step t) l)) := Tiles.wtile_at m c t q l
theorem btile_at (c : Dev nD) (t : Fin cfg0.N) (q : Fin 1024) :
    btile m c t (ix2 (0 : Fin 1) q) = B m c (ix2 (0 : Fin 1) (part rows_w (wBlock t) q)) := Tiles.btile_at m c t q

/-! ## The fold over a run -/

/-- What point number `n` adds to entry `(p, q)` of the accumulator: the inner product of row `p` of its `x` tile with row `q` of its
    weight tile (zero past the grid, where it is never used). -/
def addend (c : Dev nD) (n : ℕ) (pq : Fin 2048 × Fin 1024) : EReal :=
  if h : n < cfg0.N then ∑ l : Fin 512, xtile m c ⟨n, h⟩ (ix2 pq.1 l) * wtile m c ⟨n, h⟩ (ix2 pq.2 l) else 0

/-- The accumulator after point number `n`, entry by entry. -/
def accAfter (c : Dev nD) (n : ℕ) (h : n < cfg0.N) (pq : Fin 2048 × Fin 1024) : EReal := accTile m c n h (ix2 pq.1 pq.2)

/-- A run's first point leaves the step over the zero tile. -/
theorem acc_first_tile (c : Dev nD) (n : ℕ) (h : n < cfg0.N) (h0 : n % 8 = 0) :
    accTile m c n h = k0_pay2 (F := Ideal) (k0_pay1 (F := Ideal)) (xtile m c ⟨n, h⟩) (wtile m c ⟨n, h⟩) := by
  have h1 : ¬n % 8 = 7 := by omega
  unfold accTile
  rw [outsAt0_A m c ⟨n, h⟩ h0 h1]
  dsimp only
  exact PieceValues.acc_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh))
    (iblk m c 0 ⟨n, h⟩) (iblk m c 1 ⟨n, h⟩) (iblk m c 2 ⟨n, h⟩)

/-- Every later point leaves the step over what the point before left. -/
theorem acc_later_tile (c : Dev nD) (n : ℕ) (h : n + 1 < cfg0.N) (hne : ¬(n + 1) % 8 = 0) :
    accTile m c (n + 1) h
      = k0_pay2 (F := Ideal) (accTile m c n (Nat.lt_of_succ_lt h)) (xtile m c ⟨n + 1, h⟩) (wtile m c ⟨n + 1, h⟩) := by
  unfold accTile
  by_cases h7 : (n + 1) % 8 = 7
  · rw [outsAt0_C m c ⟨n + 1, h⟩ hne h7]
    dsimp only
    exact PieceValues.acc_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => hne ((hcond0_0 ⟨n + 1, h⟩).mp hh)) ((hcond0_1 ⟨n + 1, h⟩).mpr h7)
      (iblk m c 0 ⟨n + 1, h⟩) (iblk m c 1 ⟨n + 1, h⟩) (iblk m c 2 ⟨n + 1, h⟩) (outsAt0 m c n (Nat.lt_of_succ_lt h)).2
  · rw [outsAt0_B m c ⟨n + 1, h⟩ hne h7]
    dsimp only
    exact PieceValues.acc_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => hne ((hcond0_0 ⟨n + 1, h⟩).mp hh)) (fun hh => h7 ((hcond0_1 ⟨n + 1, h⟩).mp hh))
      (iblk m c 0 ⟨n + 1, h⟩) (iblk m c 1 ⟨n + 1, h⟩) (iblk m c 2 ⟨n + 1, h⟩) (outsAt0 m c n (Nat.lt_of_succ_lt h)).2

/-- A run's first point leaves `0 +` its addend. -/
theorem acc_reset (c : Dev nD) (n : ℕ) (h : n < cfg0.N) (h0 : n % 8 = 0) :
    accAfter m c n h = fun pq => 0 + addend m c n pq := by
  funext pq
  unfold accAfter addend
  rw [acc_first_tile m c n h h0, dif_pos h]
  refine (BodyAt.step_at _ _ _ pq.1 pq.2).trans ?_
  rw [BodyAt.opening_at]

/-- Every later point of the run adds its addend to what the point before left. -/
theorem acc_step (c : Dev nD) (n : ℕ) (h : n + 1 < cfg0.N) (hne : ¬(n + 1) % 8 = 0) :
    accAfter m c (n + 1) h = fun pq => accAfter m c n (Nat.lt_of_succ_lt h) pq + addend m c (n + 1) pq := by
  funext pq
  unfold accAfter addend
  rw [acc_later_tile m c n h hne, dif_pos h]
  exact BodyAt.step_at _ _ _ pq.1 pq.2

/-- So after point `t`, the `(t % 8)`-th of run `t / 8`, the accumulator holds `0 +` the addends of the run's points up to `t`. -/
theorem acc_at (c : Dev nD) (t : Fin cfg0.N) (pq : Fin 2048 × Fin 1024) :
    accAfter m c t.val t.isLt pq = 0 + ∑ s ∈ Finset.range (t.val % 8 + 1), addend m c (8 * (t.val / 8) + s) pq := by
  have h' : 8 * (t.val / 8) + t.val % 8 < cfg0.N := by rw [Nat.div_add_mod]; exact t.isLt
  have e := Pipeline.eq_accAt_of_mod (N := cfg0.N) (accAfter m c) 8
    (fun n _ pq => 0 + addend m c n pq) (fun n _ acc pq => acc pq + addend m c n pq)
    (fun n h h0 => acc_reset m c n h h0) (fun n h hne => acc_step m c n h hne) (by norm_num) t.val t.isLt h'
  refine (congrFun e pq).trans ?_
  exact Pipeline.accAt_add_apply (N := cfg0.N) (fun n _ pq => 0 + addend m c n pq) (fun n _ acc pq => acc pq + addend m c n pq)
    (fun _ => 0) (fun n pq => addend m c n pq) (8 * (t.val / 8)) 7
    (fun _ _ => rfl) (fun _ _ _ _ _ _ => rfl) (t.val % 8) (by omega) h' pq

/-! ## The output tile -/

/-- The run's last point writes into the output tile the accumulator it leaves plus the bias tile's row. -/
theorem out_tile_at (c : Dev nD) (t : Fin cfg0.N) (h7 : t.val % 8 = 7) (p : Fin 2048) (q : Fin 1024) :
    outTile m c t.val t.isLt (ix2 p q) = accAfter m c t.val t.isLt (p, q) + btile m c t (ix2 (0 : Fin 1) q) := by
  have h0 : ¬t.val % 8 = 0 := by omega
  unfold outTile accAfter accTile
  rw [outsAt0_C m c t h0 h7]
  dsimp only
  rw [PieceValues.out_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h7)
      (iblk m c 0 t) (iblk m c 1 t) (iblk m c 2 t) (outsAt0 m c (t.val - 1) (Nat.lt_of_le_of_lt (Nat.sub_le _ _) t.isLt)).2,
    PieceValues.acc_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h7)
      (iblk m c 0 t) (iblk m c 1 t) (iblk m c 2 t) (outsAt0 m c (t.val - 1) (Nat.lt_of_le_of_lt (Nat.sub_le _ _) t.isLt)).2]
  exact BodyAt.closing_at (iblk m c 2 t) _ p q

/-- Point `8 (t / 8) + s`'s addend, with its tiles read where they sit in the arrays. -/
theorem addend_at (c : Dev nD) (t : Fin cfg0.N) (s : ℕ) (hs : s < 8) (p : Fin 2048) (q : Fin 1024) :
    addend m c (8 * (t.val / 8) + s) (p, q)
      = ∑ l : Fin 512, X m c (ix2 (part rows_x (xBlock t) p) (part cols_inner ⟨s, hs⟩ l))
          * W m c (ix2 (part rows_w (wBlock t) q) (part cols_inner ⟨s, hs⟩ l)) := by
  have ht := lt_points t
  have hlt : 8 * (t.val / 8) + s < cfg0.N := lt_of_lt_of_eq (by omega : 8 * (t.val / 8) + s < 128) (show cfg0.N = 128 from N_0).symm
  have ex : xBlock ⟨8 * (t.val / 8) + s, hlt⟩ = xBlock t := Fin.ext (by show (8 * (t.val / 8) + s) / 32 = t.val / 32; omega)
  have ew : wBlock ⟨8 * (t.val / 8) + s, hlt⟩ = wBlock t := Fin.ext (by show (8 * (t.val / 8) + s) / 8 % 4 = t.val / 8 % 4; omega)
  have es : step ⟨8 * (t.val / 8) + s, hlt⟩ = ⟨s, hs⟩ := Fin.ext (by show (8 * (t.val / 8) + s) % 8 = s; omega)
  unfold addend
  rw [dif_pos hlt]
  refine Finset.sum_congr rfl fun l _ => ?_
  rw [xtile_at m c ⟨8 * (t.val / 8) + s, hlt⟩ p l, wtile_at m c ⟨8 * (t.val / 8) + s, hlt⟩ q l, ex, ew, es]

/-- Eight consecutive parts of 512 inner columns are all 4096 of them. -/
theorem parts_all (f : Fin 4096 → EReal) :
    ∑ s ∈ Finset.range 8, (if hs : s < 8 then ∑ l : Fin 512, f (part cols_inner ⟨s, hs⟩ l) else 0) = ∑ k : Fin 4096, f k := by
  rw [Finset.sum_range, ← Cert.LibSums.sum_parts cols_inner f]
  exact Finset.sum_congr rfl fun s _ => dif_pos s.isLt

/-- THE OUTPUT TILE of a run's last point, entry by entry, over the arrays as the region finds them. -/
theorem out_tile_value (c : Dev nD) (t : Fin cfg0.N) (h7 : t.val % 8 = 7) (p : Fin 2048) (q : Fin 1024) :
    outTile m c t.val t.isLt (ix2 p q)
      = (0 + ∑ k : Fin 4096, X m c (ix2 (part rows_x (xBlock t) p) k) * W m c (ix2 (part rows_w (wBlock t) q) k))
        + B m c (ix2 (0 : Fin 1) (part rows_w (wBlock t) q)) := by
  rw [out_tile_at m c t h7 p q, acc_at m c t (p, q), btile_at m c t q, h7,
    ← parts_all (fun k => X m c (ix2 (part rows_x (xBlock t) p) k) * W m c (ix2 (part rows_w (wBlock t) q) k))]
  refine congrArg (fun z => 0 + z + B m c (ix2 (0 : Fin 1) (part rows_w (wBlock t) q))) (Finset.sum_congr rfl fun s hs => ?_)
  have hs8 : s < 8 := Finset.mem_range.mp hs
  rw [dif_pos hs8]
  exact addend_at m c t s hs8 p q

end Cert.KernelIdeal.Accumulated

end
-- ==== Proof.OutputArray.lean ====
/-
  The array the region writes, as one function of the three arrays it reads.

  Entry `(r, o)` of the `[8192, 4096]` result is `(0 + ∑ k, X (r, k) · W (o, k)) + B (0, o)`. The last point of each run of
  eight writes back one `2048 × 1024` tile of it: row block `t / 32`, column block `(t / 8) % 4`; the sixteen tiles cover the
  array, the tile of `(r, o)` being the one written by point `32 · (r / 2048) + 8 · (o / 1024) + 7`.
-/
import proofs.«146699_j14912126452257_2_alg».proof.Proof.Accumulated

noncomputable section

namespace Cert.KernelIdeal.OutputArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Tiles Cert.KernelIdeal.Accumulated

/-- The product with the transposed weight plus the bias, at row `r` and output column `o`. -/
def productAt (X : FVec Ideal S8192x4096 .bf16) (W : FVec Ideal S4096x4096 .bf16) (B : FVec Ideal S1x4096 .f32)
    (r : Fin 8192) (o : Fin 4096) : EReal :=
  (0 + ∑ k : Fin 4096, X (ix2 r k) * W (ix2 o k)) + B (ix2 (0 : Fin 1) o)

/-- The whole `[8192, 4096]` array of them. -/
def product (X : FVec Ideal S8192x4096 .bf16) (W : FVec Ideal S4096x4096 .bf16) (B : FVec Ideal S1x4096 .f32) :
    FVec Ideal S8192x4096 .f32 := fun j => productAt X W B (j 0) (j 1)

variable (m : (ℓ : Loc nD τ sig) → Buf (Elt Ideal) ℓ)

/-- WHAT A RUN'S LAST POINT WRITES BACK is its tile of the product. -/
theorem flushed_eq (c : Dev nD) (t : Fin cfg0.N) (hf : (cfg0.win 3).flush t = true) :
    (dats m 0 c).flushed 3 t = ((cfg0.win 3).blk t).view.read (Elt Ideal) (product (X m c) (W m c) (B m c)) := by
  have h7 : t.val % 8 = 7 := (flush0_3 t).mp hf
  obtain ⟨-, -, -, -, -, -, e0, e1⟩ := index_maps t
  show (cfg0.win 3).cut (grid0.coords t) ((dats m 0 c).after 3 t) = _
  rw [after0_3]
  funext j
  show outTile m c t.val t.isLt j = product (X m c) (W m c) (B m c) (((cfg0.win 3).blk t).view.emb j)
  have hj : (j : S2048x1024.Idx) = ix2 (j 0) (j 1) := eq_ix2 j
  have er : ((cfg0.win 3).blk t).view.emb j 0 = part rows_x (xBlock t) (j 0) := Fin.ext (by
    show win0_3.index t (0 : Fin 2) * 2048 + 1 * (j 0).val = t.val / 32 * 2048 + (j 0).val; rw [e0]; omega)
  have eo : ((cfg0.win 3).blk t).view.emb j 1 = part rows_w (wBlock t) (j 1) := Fin.ext (by
    show win0_3.index t (1 : Fin 2) * 1024 + 1 * (j 1).val = t.val / 8 % 4 * 1024 + (j 1).val; rw [e1]; omega)
  calc outTile m c t.val t.isLt j
      = outTile m c t.val t.isLt (ix2 (j 0) (j 1)) := congrArg (outTile m c t.val t.isLt) hj
    _ = productAt (X m c) (W m c) (B m c) (part rows_x (xBlock t) (j 0)) (part rows_w (wBlock t) (j 1)) :=
        out_tile_value m c t h7 (j 0) (j 1)
    _ = productAt (X m c) (W m c) (B m c) (((cfg0.win 3).blk t).view.emb j 0) (((cfg0.win 3).blk t).view.emb j 1) := by rw [er, eo]
    _ = product (X m c) (W m c) (B m c) (((cfg0.win 3).blk t).view.emb j) := rfl

/-- An index of the array is in point `t`'s tile iff each coordinate is in the tile's range on its axis. -/
theorem mem_tile (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v24).slice (win0_3.rect t)).set ↔ _
  rw [View.set_slice_whole, Rect.mem_set_unit]
  exact Iff.rfl

/-- Every index of the array is in the tile some run's last point writes. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ : ∃ t : Fin cfg0.N, t.val = 32 * ((i 0).val / 2048) + 8 * ((i 1).val / 1024) + 7 :=
    ⟨⟨32 * ((i 0).val / 2048) + 8 * ((i 1).val / 1024) + 7,
      lt_of_lt_of_eq (by omega : 32 * ((i 0).val / 2048) + 8 * ((i 1).val / 1024) + 7 < 128) (show cfg0.N = 128 from N_0).symm⟩, rfl⟩
  obtain ⟨-, -, -, -, -, -, e0, e1⟩ := index_maps t
  refine ⟨t, (flush0_3 t).mpr (by omega), ?_⟩
  rw [mem_tile]
  intro a
  match a with
  | ⟨0, _⟩ =>
    show win0_3.index t (0 : Fin 2) * 2048 ≤ (i 0).val ∧ (i 0).val < win0_3.index t (0 : Fin 2) * 2048 + 2048
    rw [e0]; omega
  | ⟨1, _⟩ =>
    show win0_3.index t (1 : Fin 2) * 1024 ≤ (i 1).val ∧ (i 1).val < win0_3.index t (1 : Fin 2) * 1024 + 1024
    rw [e1]; omega

/-- THE ARRAY after the region: the product. -/
theorem final (c : Dev nD) : (dats m 0 c).arrAt 3 cfg0.N = product (X m c) (W m c) (B m c) :=
  (dats m 0 c).arrAt_eq_of_cover 3 (product (X m c) (W m c) (B m c)) (fun t hf => flushed_eq m c t hf) covered

end Cert.KernelIdeal.OutputArray

end
-- ==== Proof.LibReadStretch.lean ====
/-
  Reading a stretch of host operations through a two-operand concatenation.

  The contents a buffer holds after a line of host operations are found by rewriting each operation's result at its own buffer
  to its function's value and at any other buffer to what was there. A concatenation takes its operands as a list of
  shape-tagged vectors together with a witness about the list's tags; because the witness speaks of the list, a rewriting pass
  treats the whole list as fixed and stops there. `cat2` is the same concatenation with its two operands as plain arguments
  and a witness about the two tags only, so the pass goes on into the operands. `read_stretch` is the one-pass reading of a
  stretch with that folding added.
-/
import Idealize.ShloMosaic.Lib.StableHlo.Run

noncomputable section

namespace Idealize.ShloMosaic

/-- The concatenation of two vectors along axis `a` of `t`, its operands as arguments. -/
def cat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A printed two-operand concatenation is `cat2` of its operands. -/
theorem concatenate_two {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = cat2 t a s₁ s₂ x y h := rfl

namespace StableHlo

/-- One pass over a stretch's fold at a buffer: each operation's result at its own buffer becomes its function's value, at any
    other buffer what was there (the buffers' inequality decided), and a two-operand concatenation is folded to `cat2` so that
    the pass reads its operands too. -/
macro "read_stretch" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_two]))

end StableHlo

end Idealize.ShloMosaic

end
-- ==== Proof.Entry.lean ====
/-
  What the region finds in its three input arrays, as functions of the program's arguments.

  Before the region the host reshapes `x` from `[4, 2048, 4096]` to `[8192, 4096]` and narrows it, applies the sparse update to the
  weight (each of the 262144 values, times one, added at its index pair, a negative index counted from the end) and narrows
  the result, and recasts the bias as a single row. The sparse update is kept as ONE function of the weight, the values and
  the index pairs (`updatedWeight`) and is never opened: the reference applies the same function.
-/
import proofs.«146699_j14912126452257_2_alg».proof.Proof.Gen.KernelIdeal.Frame
import proofs.«146699_j14912126452257_2_alg».proof.Proof.LibReadStretch

noncomputable section

namespace Cert.KernelIdeal.Entry

open Idealize.ShloMosaic Idealize.ShloMosaic.TcCoe Idealize.SL.Sem Idealize.ShloMosaic.StableHlo
open Cert.KernelIdeal Cert.KernelIdeal.Gen

variable {F : FTy → Type} [FloatOps F]

/-- The weight after the sparse update: the update's values (times one) added into the weight at their index pairs. -/
def updatedWeight (w : (⟨S4096x4096, .f32⟩ : BufTy).Contents (Elt F)) (u : (⟨S262144, .f32⟩ : BufTy).Contents (Elt F))
    (ij : (⟨S2x262144, .i32⟩ : BufTy).Contents (Elt F)) : (⟨S4096x4096, .f32⟩ : BufTy).Contents (Elt F) :=
  Host.scatterAdd scatter_S4096x4096_S262144x2_S262144_n_01_01_1 w
    (concatenate S262144x2 1 [⟨S262144x1, (broadcastInDim S262144x1 ![0] bcast_S262144_S262144x1_0 (select (cmpi .slt (shapeCast _ (extractStridedSlice S1x262144 ![0, 0] ij slices_S2x262144_S1x262144_0_0) shapeCasts_S1x262144_S262144) (broadcastInDim S262144 ![] bcast_S_S262144 (constantI S_ 32 0#32))) (addi (shapeCast _ (extractStridedSlice S1x262144 ![0, 0] ij slices_S2x262144_S1x262144_0_0) shapeCasts_S1x262144_S262144) (broadcastInDim S262144 ![] bcast_S_S262144 (constantI S_ 32 4096#32))) (shapeCast _ (extractStridedSlice S1x262144 ![0, 0] ij slices_S2x262144_S1x262144_0_0) shapeCasts_S1x262144_S262144)))⟩,
      ⟨S262144x1, (broadcastInDim S262144x1 ![0] bcast_S262144_S262144x1_0 (select (cmpi .slt (shapeCast _ (extractStridedSlice S1x262144 ![1, 0] ij slices_S2x262144_S1x262144_1_0) shapeCasts_S1x262144_S262144) (broadcastInDim S262144 ![] bcast_S_S262144 (constantI S_ 32 0#32))) (addi (shapeCast _ (extractStridedSlice S1x262144 ![1, 0] ij slices_S2x262144_S1x262144_1_0) shapeCasts_S1x262144_S262144) (broadcastInDim S262144 ![] bcast_S_S262144 (constantI S_ 32 4096#32))) (shapeCast _ (extractStridedSlice S1x262144 ![1, 0] ij slices_S2x262144_S1x262144_1_0) shapeCasts_S1x262144_S262144)))⟩] concatenates_S262144x1_S262144x1_S262144x2_d1)
    (mulf u (broadcastInDim S262144 ![] bcast_S_S262144 (constant S_ .f32 0x3F800000#32)))

variable (m : (ℓ : Loc nD τ sig) → Buf (Elt F) ℓ)

/-- The weight the region stages: the updated weight, narrowed. -/
theorem weight_entry (c : Dev nD) :
    V m c main_v20 = truncf .bf16 (updatedWeight (F := F) (m ((c : Thread nD τ).loc main_arg1)) (m ((c : Thread nD τ).loc main_arg3))
      (m ((c : Thread nD τ).loc main_arg4))) bitsLt_bf16_f32 := by
  show StableHlo.after hostOps0 (fun b => m (c, b)) (Proc.devRef .tc main_v20) = _
  read_stretch
  rfl

/-- The `x` the region stages: `x` with its two leading axes merged, narrowed. -/
theorem x_entry (c : Dev nD) :
    V m c main_v22 = truncf .bf16 (shapeCast _ (m ((c : Thread nD τ).loc main_arg0)) shapeCasts_S4x2048x4096_S8192x4096) bitsLt_bf16_f32 := by
  show StableHlo.after hostOps0 (fun b => m (c, b)) (Proc.devRef .tc main_v22) = _
  read_stretch
  rfl

/-- The bias the region stages: the bias as one row. -/
theorem bias_entry (c : Dev nD) :
    V m c main_v23 = shapeCast _ (m ((c : Thread nD τ).loc main_arg2)) shapeCasts_S4096_S1x4096 := by
  show StableHlo.after hostOps0 (fun b => m (c, b)) (Proc.devRef .tc main_v23) = _
  read_stretch
  rfl

end Cert.KernelIdeal.Entry

end
-- ==== Proof.LibRowMerge.lean ====
/-
  Merging the two leading axes of a three-axis array into one, and splitting them again, read at an index.

  A row-major array `[a, b, c]` recast as `[n, c]` with `n = a · b` keeps every entry at the same row-major position: entry
  `(p, r, k)` becomes entry `(p · b + r, k)` (`shapeCast_merge_apply`); the recast back reads entry `(p · b + r, k)` at
  `(p, r, k)` (`shapeCast_split_apply`). Generic extents; the merged row index is `rowOf`.
-/
import Idealize.ShloMosaic.Lib.ValueIdx
import Idealize.ShloMosaic.Lib.Pipeline.Value

noncomputable section

namespace Cert.Lib.RowMerge

open Idealize.ShloMosaic Idealize.ShloMosaic.ValueIdx

/-- Row `r` of block `p`, among `a` blocks of `b` rows each, as a row of the merged axis of extent `n = a · b`. -/
def rowOf {a b n : ℕ} (h : a * b = n) (p : Fin a) (r : Fin b) : Fin n :=
  ⟨p.val * b + r.val, lt_of_lt_of_eq (calc p.val * b + r.val < p.val * b + b := Nat.add_lt_add_left r.isLt _
    _ = (p.val + 1) * b := (Nat.succ_mul _ _).symm
    _ ≤ a * b := Nat.mul_le_mul_right b p.isLt) h⟩

theorem rowOf_val {a b n : ℕ} (h : a * b = n) (p : Fin a) (r : Fin b) : (rowOf h p r).val = p.val * b + r.val := rfl

/-- Every row of the merged axis is some row of some block. -/
theorem exists_rowOf {a b n : ℕ} (h : a * b = n) (hb : 0 < b) (i : Fin n) : ∃ (p : Fin a) (r : Fin b), i = rowOf h p r := by
  have hi : i.val < a * b := lt_of_lt_of_eq i.isLt h.symm
  refine ⟨⟨i.val / b, (Nat.div_lt_iff_lt_mul hb).mpr hi⟩, ⟨i.val % b, Nat.mod_lt _ hb⟩, Fin.ext ?_⟩
  show i.val = i.val / b * b + i.val % b
  rw [Nat.mul_comm]; exact (Nat.div_add_mod _ _).symm

/-- The merged array at `(p · b + r, k)` is the array at `(p, r, k)`. -/
theorem shapeCast_merge_apply {α : Type} {a b c n : ℕ} (hn : a * b = n) (x : (⟨3, ![a, b, c]⟩ : Shape).Idx → α)
    (h : (⟨3, ![a, b, c]⟩ : Shape).ShapeCasts ⟨2, ![n, c]⟩) (p : Fin a) (r : Fin b) (k : Fin c) :
    shapeCast ⟨2, ![n, c]⟩ x h (ix2 (rowOf hn p r) k) = x (ix3 p r k) :=
  shapeCast_apply x h _ _ (by
    rw [Shape.rowMajor_val_three, Shape.rowMajor_val_two]
    show (p.val * b + r.val) * c + k.val = (p.val * b + r.val) * c + k.val
    rfl)

/-- The array split again at `(p, r, k)` is the merged array at `(p · b + r, k)`. -/
theorem shapeCast_split_apply {α : Type} {a b c n : ℕ} (hn : a * b = n) (y : (⟨2, ![n, c]⟩ : Shape).Idx → α)
    (h : (⟨2, ![n, c]⟩ : Shape).ShapeCasts ⟨3, ![a, b, c]⟩) (p : Fin a) (r : Fin b) (k : Fin c) :
    shapeCast ⟨3, ![a, b, c]⟩ y h (ix3 p r k) = y (ix2 (rowOf hn p r) k) :=
  shapeCast_apply y h _ _ (by
    rw [Shape.rowMajor_val_three, Shape.rowMajor_val_two]
    show (p.val * b + r.val) * c + k.val = (p.val * b + r.val) * c + k.val
    rfl)

end Cert.Lib.RowMerge

end
-- ==== Proof.Layer.lean ====
/-
  The linear layer both programs compute, entry by entry.

  For `x` of shape `[4, 2048, 4096]`, a weight of shape `[4096, 4096]` (output feature first) and a bias of length 4096, the value
  at batch entry `b`, position `s` and output feature `o` is `(∑ k, x (b, s, k) · weight (o, k)) + bias o` over the extended reals.
-/
import Idealize.ShloMosaic.Lib.ValueIdx
import Idealize.ShloMosaic.PureOps.Ideal

noncomputable section

namespace Cert.Layer

open Idealize.ShloMosaic Idealize.ShloMosaic.ValueIdx

/-- The layer at `(b, s, o)`. -/
def linearAt (x : (⟨3, ![4, 2048, 4096]⟩ : Shape).Idx → EReal) (weight : (⟨2, ![4096, 4096]⟩ : Shape).Idx → EReal)
    (bias : (⟨1, ![4096]⟩ : Shape).Idx → EReal) (b : Fin 4) (s : Fin 2048) (o : Fin 4096) : EReal :=
  (∑ k : Fin 4096, x (ix3 b s k) * weight (ix2 o k)) + bias (ix1 o)

/-- The whole `[4, 2048, 4096]` array of them. -/
def linear (x : (⟨3, ![4, 2048, 4096]⟩ : Shape).Idx → EReal) (weight : (⟨2, ![4096, 4096]⟩ : Shape).Idx → EReal)
    (bias : (⟨1, ![4096]⟩ : Shape).Idx → EReal) : (⟨3, ![4, 2048, 4096]⟩ : Shape).Idx → EReal :=
  fun j => linearAt x weight bias (j 0) (j 1) (j 2)

theorem linear_apply (x : (⟨3, ![4, 2048, 4096]⟩ : Shape).Idx → EReal) (weight : (⟨2, ![4096, 4096]⟩ : Shape).Idx → EReal)
    (bias : (⟨1, ![4096]⟩ : Shape).Idx → EReal) (b : Fin 4) (s : Fin 2048) (o : Fin 4096) :
    linear x weight bias (ix3 b s o) = linearAt x weight bias b s o := rfl

end Cert.Layer

end
-- ==== Proof.KernelRun.lean ====
/-
  The kernel's run, read: its result is the linear layer of `x`, the updated weight and the bias.

  After the region the host splits the 8192 rows of the product back into 4 batch entries of 2048 positions. Entry `(b, s, o)` of
  the result is therefore the product at row `2048 b + s`, column `o`: `(0 + ∑ k, X (2048 b + s, k) · W (o, k)) + B (0, o)`; and
  the three arrays the region read are `x` with its leading axes merged, the updated weight, and the bias as one row, so this is
  `(∑ k, x (b, s, k) · W' (o, k)) + bias o` with `W'` the updated weight. The `0 +` goes by the monoid's law; nothing needs to be
  finite.
-/
import proofs.«146699_j14912126452257_2_alg».proof.Proof.OutputArray
import proofs.«146699_j14912126452257_2_alg».proof.Proof.Entry
import proofs.«146699_j14912126452257_2_alg».proof.Proof.LibRowMerge
import proofs.«146699_j14912126452257_2_alg».proof.Proof.LibTileRead
import proofs.«146699_j14912126452257_2_alg».proof.Proof.Layer
import Idealize.ShloMosaic.Lib.StableHlo.Run

noncomputable section

namespace Cert.KernelIdeal.Result

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Tiles Cert.KernelIdeal.Accumulated Cert.KernelIdeal.OutputArray
open Cert.KernelIdeal.Entry Cert.Lib.RowMerge

variable (m : (ℓ : Loc nD τ sig) → Buf (Elt Ideal) ℓ) (ρ : Dev nD → PrngReg)

/-- The result the kernel's program ends with, as a function of its arguments. -/
def result (c : Dev nD) : Buf (Elt Ideal) ((c : Thread nD τ).loc main_v25) :=
  Cert.Layer.linear (m ((c : Thread nD τ).loc main_arg0)) (updatedWeight (F := Ideal) (m ((c : Thread nD τ).loc main_arg1)) (m ((c : Thread nD τ).loc main_arg3)) (m ((c : Thread nD τ).loc main_arg4)))
    (m ((c : Thread nD τ).loc main_arg2))

/-- The host's line after the region splits the product's rows. -/
theorem tail_eq (c : Dev nD) :
    Pipeline.afterTail₀ cfgs (dats m) 0 (V0 m) [hostOps1] c main_v25
      = shapeCast _ (product (X m c) (W m c) (B m c)) shapeCasts_S8192x4096_S4x2048x4096 := by
  unfold Pipeline.afterTail₀
  show StableHlo.after hostOps1 _ (Proc.devRef .tc main_v25) = _
  after_results
  have e : Pipeline.withArrays (cfgs 0).spec c (V0 m c) (fun w => (dats m 0 c).arrAt w (cfgs 0).N) (Proc.devRef .tc main_v24)
      = product (X m c) (W m c) (B m c) :=
    (Pipeline.withArrays_arr spec0 launch0.win.arr_inj c _ _ 3).trans (final m c)
  exact congrArg (fun y => shapeCast S4x2048x4096 y shapeCasts_S8192x4096_S4x2048x4096) e

theorem rows_bs : 4 * 2048 = 8192 := by norm_num

/-- `x` as the region finds it, at row `2048 b + s`: `x` at `(b, s, ·)`. -/
theorem x_at (c : Dev nD) (b : Fin 4) (s : Fin 2048) (k : Fin 4096) :
    X m c (ix2 (rowOf rows_bs b s) k) = m ((c : Thread nD τ).loc main_arg0) (ix3 b s k) := by
  unfold X
  rw [x_entry m c]
  exact shapeCast_merge_apply rows_bs (m ((c : Thread nD τ).loc main_arg0)) shapeCasts_S4x2048x4096_S8192x4096 b s k

/-- The weight as the region finds it: the updated weight. -/
theorem w_at (c : Dev nD) (o k : Fin 4096) :
    W m c (ix2 o k) = updatedWeight (F := Ideal) (m ((c : Thread nD τ).loc main_arg1)) (m ((c : Thread nD τ).loc main_arg3)) (m ((c : Thread nD τ).loc main_arg4)) (ix2 o k) := by
  unfold W
  rw [weight_entry m c]
  rfl

/-- The bias row as the region finds it: the bias. -/
theorem b_at (c : Dev nD) (o : Fin 4096) : B m c (ix2 (0 : Fin 1) o) = m ((c : Thread nD τ).loc main_arg2) (ix1 o) := by
  unfold B
  rw [bias_entry m c]
  exact Cert.Lib.TileRead.shapeCast_row_apply (m ((c : Thread nD τ).loc main_arg2)) shapeCasts_S4096_S1x4096 (0 : Fin 1) o

/-- THE RESULT, entry by entry: the split product is the linear layer of the arguments. -/
theorem value_eq (c : Dev nD) :
    shapeCast S4x2048x4096 (product (X m c) (W m c) (B m c)) shapeCasts_S8192x4096_S4x2048x4096 = result m c := by
  funext j
  obtain ⟨b, s, o, rfl⟩ : ∃ (b : Fin 4) (s : Fin 2048) (o : Fin 4096), j = ix3 b s o := ⟨j 0, j 1, j 2, eq_ix3 j⟩
  rw [shapeCast_split_apply rows_bs (product (X m c) (W m c) (B m c)) shapeCasts_S8192x4096_S4x2048x4096 b s o]
  show productAt (X m c) (W m c) (B m c) (rowOf rows_bs b s) o
    = Cert.Layer.linearAt (m ((c : Thread nD τ).loc main_arg0)) (updatedWeight (F := Ideal) (m ((c : Thread nD τ).loc main_arg1)) (m ((c : Thread nD τ).loc main_arg3)) (m ((c : Thread nD τ).loc main_arg4)))
        (m ((c : Thread nD τ).loc main_arg2)) b s o
  unfold productAt Cert.Layer.linearAt
  rw [zero_add, b_at m c o]
  refine congrArg (· + m ((c : Thread nD τ).loc main_arg2) (ix1 o)) (Finset.sum_congr rfl fun k _ => ?_)
  rw [x_at m c b s k, w_at m c o k]

/-- The kernel's run, re-posted: its result at the linear layer of its arguments, the arguments unchanged. -/
theorem run : θ_run defs (onTc (τ := τ) (main (F := Ideal))) ⟨m, fun _ => 0, ρ⟩ (fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c =>
    ⟨((h c).2 main_v25 (Pipeline.mem_restRefs_of main_v25 (by decide) (by decide))).trans ((tail_eq m c).trans (value_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Result

end
-- ==== Proof.RefRead.lean ====
/-
  The reference read at an index.

  The reference computes, for a batch entry `b`, a position `s` and an output feature `o`,
  `(∑ k, x (b, s, k) · W (o, k)) + bias o`, where `W` is the weight after the sparse update: a product contracting the last axis
  of `x` with the second axis of `W`, plus the bias repeated over batch entries and positions.
-/
import proofs.«146699_j14912126452257_2_alg».proof.Proof.Gen.ReferenceIdeal.Read
import Idealize.ShloMosaic.Lib.ValueIdx

noncomputable section

namespace Cert.ReferenceIdeal.AtIndex

open Idealize.ShloMosaic Idealize.ShloMosaic.ValueIdx
open Cert.ReferenceIdeal Cert.ReferenceIdeal.Read

/-- The reference's result at `(b, s, o)`. -/
theorem result_at (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S262144, .f32⟩ : BufTy).Contents (Elt Ideal))
    (x4 : (⟨S2x262144, .i32⟩ : BufTy).Contents (Elt Ideal)) (b : Fin 4) (s : Fin 2048) (o : Fin 4096) :
    val_main_v23 (F := Ideal) x0 x1 x2 x3 x4 (ix3 b s o)
      = (∑ k : Fin 4096, x0 (ix3 b s k) * val_main_v19 (F := Ideal) x1 x3 x4 (ix2 o k)) + x2 (ix1 o) := by
  have el : ∀ k : Fin 4096, lidx_main_v20 (ix3 b s o) k = ix3 b s k := fun k => funext fun a => Fin.ext (by
    match a with
    | ⟨0, _⟩ => rfl
    | ⟨1, _⟩ => rfl
    | ⟨2, _⟩ => rfl)
  have er : ∀ k : Fin 4096, ridx_main_v20 (ix3 b s o) k = ix2 o k := fun k => funext fun a => Fin.ext (by
    match a with
    | ⟨0, _⟩ => rfl
    | ⟨1, _⟩ => rfl)
  have eb : idx_main_v21 (idx_main_v22 (ix3 b s o)) = ix1 o := funext fun a => Fin.ext (by
    match a with
    | ⟨0, _⟩ => rfl)
  rw [val_main_v23_apply, val_main_v20_apply, val_main_v22_apply, val_main_v21_apply]
  simp only [el, er, eb]
  rfl

end Cert.ReferenceIdeal.AtIndex

end
-- ==== Proof.Agreement.lean ====
/-
  The reference computes the same linear layer.

  Both programs apply the sparse update to the weight by the same operations in the same order, so the updated weight is one
  function of the weight, the update's values and its index pairs, whichever program's text it is read from. The reference's
  result at `(b, s, o)` is then `(∑ k, x (b, s, k) · W' (o, k)) + bias o` with that same `W'`: the layer the kernel's program ends with.
-/
import proofs.«146699_j14912126452257_2_alg».proof.Proof.RefRead
import proofs.«146699_j14912126452257_2_alg».proof.Proof.Entry
import proofs.«146699_j14912126452257_2_alg».proof.Proof.Layer

noncomputable section

namespace Cert.ReferenceIdeal.Agreement

open Idealize.ShloMosaic Idealize.ShloMosaic.ValueIdx
open Cert.ReferenceIdeal Cert.ReferenceIdeal.Read

/-- The updated weight is the same function in both programs' texts. -/
theorem same_update (x1 : (⟨S4096x4096, .f32⟩ : BufTy).Contents (Elt Ideal)) (x3 : (⟨S262144, .f32⟩ : BufTy).Contents (Elt Ideal))
    (x4 : (⟨S2x262144, .i32⟩ : BufTy).Contents (Elt Ideal)) :
    val_main_v19 (F := Ideal) x1 x3 x4 = Cert.KernelIdeal.Entry.updatedWeight (F := Ideal) x1 x3 x4 := rfl

/-- The reference's result is the linear layer of `x`, the updated weight and the bias. -/
theorem result_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S262144, .f32⟩ : BufTy).Contents (Elt Ideal))
    (x4 : (⟨S2x262144, .i32⟩ : BufTy).Contents (Elt Ideal)) :
    val_main_v23 (F := Ideal) x0 x1 x2 x3 x4
      = Cert.Layer.linear x0 (Cert.KernelIdeal.Entry.updatedWeight (F := Ideal) x1 x3 x4) x2 := by
  funext j
  obtain ⟨b, s, o, rfl⟩ : ∃ (b : Fin 4) (s : Fin 2048) (o : Fin 4096), j = ix3 b s o := ⟨j 0, j 1, j 2, eq_ix3 j⟩
  rw [Cert.ReferenceIdeal.AtIndex.result_at, same_update, Cert.Layer.linear_apply]
  rfl

end Cert.ReferenceIdeal.Agreement

end
-- ==== Proof.lean ====
/-
  A linear layer whose weight first receives a sparse update: `y (b, s, o) = (∑ k, x (b, s, k) · W' (o, k)) + bias o`, where `W'` is the
  weight with 262144 values added in at given (row, column) pairs.

  The reference computes it as written: one product contracting the last axis of `x` with the second axis of `W'`, plus the bias.
  The kernel merges the two leading axes of `x` into 8192 rows and tiles the product: 2048 rows of `x` against 1024 rows of `W'`,
  512 inner columns at a time, eight steps to a run; the run's first step opens a zero accumulator, each step adds its
  partial inner products, the last adds the bias and writes the tile back; the host then splits the rows again. Narrowing the
  operands to a shorter float format changes nothing over the extended reals.

  The two agree because a sum over 4096 inner columns is the sum of its eight consecutive parts of 512 and `0 + z = z`: laws of the
  additive commutative monoid of the extended reals, which hold at the infinities too, so the finiteness of the inputs is never
  used. The sparse update is the same function in both programs and is carried along unopened.

  The modules: BodyAt (the body's three stored values at an entry), PieceValues (what each kind of grid point leaves, as those
  values), Tiles (where a point's tiles sit in their arrays), Accumulated (the accumulator as a fold over a run, and the output
  tile), OutputArray (the sixteen written tiles are the whole product), Entry (what the region finds, from the arguments),
  KernelRun (the result as the layer function), RefRead and Agreement (the reference is the same function), Layer (that function).
-/
import proofs.«146699_j14912126452257_2_alg».proof.Defs
import proofs.«146699_j14912126452257_2_alg».proof.Proof.Gen.Kernel
import proofs.«146699_j14912126452257_2_alg».proof.Proof.Gen.Kernel.Frame
import proofs.«146699_j14912126452257_2_alg».proof.Proof.Gen.KernelIdeal
import proofs.«146699_j14912126452257_2_alg».proof.Proof.Gen.KernelIdeal.Frame
import proofs.«146699_j14912126452257_2_alg».proof.Proof.Gen.ReferenceIdeal
import proofs.«146699_j14912126452257_2_alg».proof.Proof.Gen.ReferenceIdeal.Run
import proofs.«146699_j14912126452257_2_alg».proof.Proof.Gen.ReferenceIdeal.Read
import proofs.«146699_j14912126452257_2_alg».proof.Proof.Gen.Pre_finite_inputs
import proofs.«146699_j14912126452257_2_alg».proof.Proof.KernelRun
import proofs.«146699_j14912126452257_2_alg».proof.Proof.Agreement
import Idealize.ShloMosaic.Adequacy
import Idealize.ShloMosaic.Init

noncomputable section

namespace Cert.Proof

open Idealize.ShloMosaic Idealize.ShloMosaic.TcCoe Idealize.SL.Sem

/-- The kernel's program runs and leaves its arguments as they were. -/
theorem frame_kernel : Cert.frame_Kernel := fun m ρ _ => Cert.Kernel.Gen.frame m ρ

/-- So does the same program read over the extended reals. -/
theorem frame_kernelIdeal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel's program over the extended reals rewrote none of its operations. -/
theorem preserves : Cert.preserves_Kernel_KernelIdeal := trivial

/-- From arguments that agree, the kernel's program ends with the linear layer of `x`, the updated weight and the bias, and so
    does the reference. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.Agreement.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
